-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x256 .f32) (main_arg3 : FVec F S256 .f32) (main_arg4 : FVec F S256x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg4
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x256 : Shape := ⟨2, ![1, 256]⟩
abbrev S1x64 : Shape := ⟨2, ![1, 64]⟩
abbrev S50000x64 : Shape := ⟨2, ![50000, 64]⟩
abbrev S10000x128 : Shape := ⟨2, ![10000, 128]⟩
abbrev S10000x64 : Shape := ⟨2, ![10000, 64]⟩
abbrev S10000x256 : Shape := ⟨2, ![10000, 256]⟩

abbrev nBuf : Space → Nat
  | .hbm => 74
  | .vmem => 8
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x128, .bf16⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .bf16⟩
  | .hbm, ⟨63, _⟩ => ⟨S850000x1, .f32⟩
  | .hbm, ⟨64, _⟩ => ⟨S850000x128, .f32⟩
  | .hbm, ⟨65, _⟩ => ⟨S850000x128, .f32⟩
  | .hbm, ⟨66, _⟩ => ⟨S850000x128, .f32⟩
  | .hbm, ⟨67, _⟩ => ⟨S_, .f32⟩
  | .hbm, ⟨68, _⟩ => ⟨S50000x128, .f32⟩
  | .hbm, ⟨69, _⟩ => ⟨S850000x1, .i32⟩
  | .hbm, ⟨70, _⟩ => ⟨S50000x128, .f32⟩
  | .hbm, ⟨71, _⟩ => ⟨S1x256, .f32⟩
  | .hbm, ⟨72, _⟩ => ⟨S1x64, .f32⟩
  | .hbm, ⟨73, _⟩ => ⟨S50000x64, .f32⟩
  | .local _ .vmem, ⟨0, _⟩ => ⟨S10000x128, .f32⟩
  | .local _ .vmem, ⟨1, _⟩ => ⟨S10000x128, .f32⟩
  | .local _ .vmem, ⟨2, _⟩ => ⟨S128x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_10 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bitsLt_bf16_f32 : FTy.bits .bf16 < FTy.bits .f32
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S256_S1x256 : S256.ShapeCasts S1x256
  shapeCasts_S64_S1x64 : S64.ShapeCasts S1x64
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S10000x128_S128x256_S10000x256_1_0_0_1_n_n_wf : DotDims.WF S10000x128 S128x256 S10000x256 [1] [0] [0] [1] [] []
  dot_S10000x256_S256x64_S10000x64_1_0_0_1_n_n_wf : DotDims.WF S10000x256 S256x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .f32 = 32 ∨ (Rect.block (s := S256x64) S256x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .f32 = 32 ∨ (Rect.block (s := S50000x64) S10000x64.size (cc0_transform_5 i) (hinb0_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf

abbrev win0_0 : Pipeline.Window sig grid0 :=
  Pipeline.Window.ofSpec (Memref.whole main_v49) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v50) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v51) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩
abbrev S50000x64 : Shape := ⟨2, ![50000, 64]⟩
abbrev S1x64 : Shape := ⟨2, ![1, 64]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x256, .f32⟩
  | .hbm, ⟨3, _⟩ => ⟨S256, .f32⟩
  | .hbm, ⟨4, _⟩ => ⟨S256x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S50000, .f32⟩
  | .hbm, ⟨15, _⟩ => ⟨S_, .i32⟩
  | .hbm, ⟨16, _⟩ => ⟨S850000, .i32⟩
  | .hbm, ⟨17, _⟩ => ⟨S850000, .i1⟩
  | .hbm, ⟨18, _⟩ => ⟨S_, .i32⟩
  | .hbm, ⟨19, _⟩ => ⟨S850000, .i32⟩
  | .hbm, ⟨20, _⟩ => ⟨S850000, .i32⟩
  | .hbm, ⟨21, _⟩ => ⟨S850000, .i32⟩
  | .hbm, ⟨22, _⟩ => ⟨S850000x1, .i32⟩
  | .hbm, ⟨23, _⟩ => ⟨S_, .f32⟩
  | .hbm, ⟨24, _⟩ => ⟨S850000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .i1⟩
  | .hbm, ⟨29, _⟩ => ⟨S50000, .f32⟩
  | .hbm, ⟨30, _⟩ => ⟨S_, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S_, .i32⟩
  | .hbm, ⟨35, _⟩ => ⟨S850000, .i32⟩
  | .hbm, ⟨36, _⟩ => ⟨S850000, .i1⟩
  | .hbm, ⟨37, _⟩ => ⟨S_, .i32⟩
  | .hbm, ⟨38, _⟩ => ⟨S850000, .i32⟩
  | .hbm, ⟨39, _⟩ => ⟨S850000, .i32⟩
  | .hbm, ⟨40, _⟩ => ⟨S850000, .i32⟩
  | .hbm, ⟨41, _⟩ => ⟨S850000x1, .i32⟩
  | .hbm, ⟨42, _⟩ => ⟨S850000, .f32⟩
  | .hbm, ⟨43, _⟩ => ⟨S_, .i32⟩
  | .hbm, ⟨44, _⟩ => ⟨S850000, .i32⟩
  | .hbm, ⟨45, _⟩ => ⟨S850000, .i1⟩
  | .hbm, ⟨46, _⟩ => ⟨S_, .i32⟩
  | .hbm, ⟨47, _⟩ => ⟨S850000, .i32⟩
  | .hbm, ⟨48, _⟩ => ⟨S850000, .i32⟩
  | .hbm, ⟨49, _⟩ => ⟨S850000, .i32⟩
  | .hbm, ⟨50, _⟩ => ⟨S850000x1, .i32⟩
  | .hbm, ⟨51, _⟩ => ⟨S850000, .f32⟩
  | .hbm, ⟨52, _⟩ => ⟨S850000, .f32⟩
  | .hbm, ⟨53, _⟩ => ⟨S50000x256, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x256, .f32⟩
  | .hbm, ⟨63, _⟩ => ⟨S850000x1, .f32⟩
  | .hbm, ⟨64, _⟩ => ⟨S850000x256, .f32⟩
  | .hbm, ⟨65, _⟩ => ⟨S850000x256, .f32⟩
  | .hbm, ⟨66, _⟩ => ⟨S_, .f32⟩
  | .hbm, ⟨67, _⟩ => ⟨S50000x256, .f32⟩
  | .hbm, ⟨68, _⟩ => ⟨S850000x1, .i32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x64, .f32⟩
  | .hbm, ⟨77, _⟩ => ⟨S1x64, .f32⟩
  | .hbm, ⟨78, _⟩ => ⟨S50000x64, .f32⟩
  | .hbm, ⟨79, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_c_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_call1_cst : Ref sig .tc := ⟨.hbm, 73, rfl⟩
abbrev main_call1_v0 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x64_S50000x64_1_0_0_1_n_n_wf : DotDims.WF S50000x256 S256x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf

class Facts : Prop extends Facts₀ where

variable [Facts]
-- ==== Proof.LibRealSum.lean ====
/-
  Real entries among the extended reals, and the one law that lets a graph propagation step commute with a product by a matrix.

  At the ideal values a float is an extended real, and on the extended reals a product does not distribute over a
  sum in general (`⊤ + ⊥`). Where every entry is a real it does: this module names that condition (`IsReal`), shows
  the operations a degree normalisation is made of keep it (a finite sum, a product, a maximum, a choice between two
  reals, the reciprocal square root of a positive real), pushes the coercion `ℝ → EReal` through finite sums
  (`coe_sum`), and proves the law (`step_comm`): for real coefficients `ν e`, real rows `a e k` and a real
  column `w k`,

      0 + ∑ e ∈ S, (∑ k, a e k · w k) · ν e  =  ∑ k, (∑ e ∈ S, a e k · ν e) · w k

  — adding up weighted rows and then contracting with `w` is contracting each row with `w` and then adding up.
-/
import Idealize.ShloMosaic.PureOps.Ideal
import Idealize.ShloMosaic.PureOps.Ideal.Laws

noncomputable section

open scoped BigOperators

namespace Cert.Lib.RealSum

open Idealize.ShloMosaic

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- One propagation step on real entries stays real: zero plus a sum of products of reals is the real sum of products. -/
theorem step_real {E : Type*} (S : Finset E) (a ν : E → ℝ) :
    (0 : EReal) + ∑ e ∈ S, (a e : EReal) * (ν e : EReal) = ((∑ e ∈ S, a e * ν e : ℝ) : EReal) := by
  rw [zero_add, coe_sum]
  simp only [EReal.coe_mul]

/-- A propagation step commutes with a contraction of the feature axis: weighting and adding up rows that were
    already contracted with `w` gives the contraction with `w` of the weighted sum of the rows. -/
theorem step_comm {E K : Type*} [Fintype K] (S : Finset E) (a : E → K → ℝ) (ν : E → ℝ) (w : K → ℝ) :
    (0 : EReal) + ∑ e ∈ S, ((∑ k, a e k * w k : ℝ) : EReal) * (ν e : EReal)
      = ((∑ k, (∑ e ∈ S, a e k * ν e) * w k : ℝ) : EReal) := by
  rw [step_real]
  refine congrArg _ ?_
  simp only [Finset.sum_mul]
  rw [Finset.sum_comm]
  refine Finset.sum_congr rfl fun k _ => Finset.sum_congr rfl fun e _ => by ring

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => simpa using IsReal.zero
  | insert a s ha ih =>
    rw [Finset.sum_insert ha]
    exact (h a (Finset.mem_insert_self a s)).add (ih fun i hi => h i (Finset.mem_insert_of_mem hi))

/-- The ideal reciprocal square root of a positive real is a real. -/
theorem IsReal.rsqrt_of_pos {r : ℝ} (hr : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr hr.le), if_neg hr.ne']

/-- A real that is at least a positive real has a real ideal reciprocal square root. -/
theorem IsReal.rsqrt_max {x c : EReal} (hx : IsReal x) {r : ℝ} (hc : c = (r : EReal)) (hr : 0 < r) :
    IsReal (Ideal.rsqrt (Max.max x c)) := by
  obtain ⟨a, rfl⟩ := hx
  subst hc
  have : Max.max (a : EReal) (r : EReal) = ((Max.max a r : ℝ) : EReal) := (EReal.coe_strictMono.monotone.map_max (a := a) (b := r)).symm
  rw [this]
  exact IsReal.rsqrt_of_pos (lt_of_lt_of_le hr (le_max_right a r))

/-! ## The host operations a normalisation is made of, on real entries

Stated over arbitrary shapes and dimension numbers, so that at a program's literal shapes they apply to the printed
operation as it stands. -/

/-- The f32 zero word is the real `0`. -/
theorem IsReal.ofBits_zero : IsReal (FloatOps.ofBits (F := Ideal) .f32 0x00000000#32) := by
  rw [Ideal.ofBits_def, Ideal.ofBits_zero_f32]
  exact IsReal.zero

/-- A float product of reals is real. -/
theorem IsReal.fmul {x y : EReal} (hx : IsReal x) (hy : IsReal y) :
    IsReal (FloatOps.mulf (F := Ideal) (φ := .f32) x y) := hx.mul hy

/-- A choice between two reals is real, whichever the condition picks. -/
theorem IsReal.select (c : BitVec 1) {a b : EReal} (ha : IsReal a) (hb : IsReal b) : IsReal (Scalar.select c a b) := by
  unfold Scalar.select
  split <;> assumption

/-- The host's reciprocal square root of the maximum of a real and a positive real is real. -/
theorem IsReal.host_rsqrt_max {x c : EReal} (hx : IsReal x) {r : ℝ} (hc : c = (r : EReal)) (hr : 0 < r) :
    IsReal (FloatOps.hostUnary (F := Ideal) (φ := .f32) .rsqrt (FloatOps.maximumf (F := Ideal) (φ := .f32) x c)) :=
  IsReal.rsqrt_max hx hc hr

/-- An accumulating scatter of real updates into a real operand is real at every index: each element is the operand's
    plus a finite sum of updates. -/
theorem IsReal.host_scatterAdd {s si su : Shape} (d : ScatterDims s si su) {w : Nat} (x : FVec Ideal s .f32)
    (idx : IVec si w) (upd : FVec Ideal su .f32) (hx : ∀ i, IsReal (x i)) (hu : ∀ j, IsReal (upd j)) (i : s.Idx) :
    IsReal (Host.scatterAdd d x idx upd i) := by
  show IsReal (Ideal.hostScatterAdd d x idx upd i)
  unfold Ideal.hostScatterAdd
  exact (hx i).add (IsReal.sum _ _ fun j _ => hu j)

/-- A gathered entry of a real array is real, wherever the index points. -/
theorem IsReal.host_gather {s si t : Shape} (d : GatherDims s si t) {w : Nat} (x : s.Idx → EReal) (idx : IVec si w)
    (hx : ∀ i, IsReal (x i)) (j : t.Idx) : IsReal (Host.gather d x idx j) := hx _

end Cert.Lib.RealSum

end
-- ==== Proof.Finite.lean ====
/-
  From the precondition to real entries.

  The precondition says of each float argument that every entry's absolute value is below `+∞`. On the extended
  reals `|x| = max x (−x)`, and `max x (−x) < ⊤` excludes exactly the two infinities: such an entry is a real number.
  The precondition is one conjunction of five `all`-reductions; the two conjuncts read here are those of the node
  features `x` and of the first weight matrix `W` — the only arrays whose entries are multiplied across a sum in
  the law that exchanges the aggregation with the product.
-/
import proofs.«158620_j51762945852140_2_alg».proof.Pre_finite_inputs
import proofs.«158620_j51762945852140_2_alg».proof.Proof.Gen.Pre_finite_inputs
import proofs.«158620_j51762945852140_2_alg».proof.Proof.LibRealSum
import Idealize.ShloMosaic.Lib.ReduceAll
import Idealize.ShloMosaic.Lib.ValueIdx
import Idealize.ShloMosaic.Lib.Pipeline.Value

noncomputable section

namespace Cert.Gcn.Finite

open Idealize.ShloMosaic Idealize.ShloMosaic.ValueIdx Cert.Pre_finite_inputs Cert.Lib.RealSum

instance : Subsingleton S_.Idx := ⟨fun _ _ => funext fun d => d.elim0⟩

/-- The word `0x7F800000` is `+∞`. -/
theorem ofBits_inf : Ideal.ofBits .f32 0x7F800000#32 = (⊤ : EReal) := by
  simp [Ideal.ofBits, Ideal.ieee]

/-- An extended real whose absolute value compares below `+∞` is a real number. -/
theorem isReal_of_abs_lt (x : EReal)
    (h : Ideal.cmp .olt (max x (-x)) (Ideal.ofBits .f32 0x7F800000#32) = 1#1) : IsReal x := by
  rw [ofBits_inf] at h
  have h' : max x (-x) < ⊤ := by
    unfold Ideal.cmp at h
    dsimp only at h
    by_contra hc
    rw [decide_eq_false hc] at h
    exact absurd h (by decide)
  induction x using EReal.rec with
  | bot => simp at h'
  | coe r => exact ⟨r, rfl⟩
  | top => simp at h'

/-- One `all(|a| < ∞)` conjunct, read at an entry. -/
theorem entry_real {s : Shape} (a : FVec Ideal s .f32) (hb : S_.BroadcastsInDim s (![] : Fin 0 → Fin s.rank))
    (hr : ∀ i, cmpf .olt (Host.absf a) (broadcastInDim s ![] hb (constant (F := Ideal) S_ .f32 0x7F800000#32)) i = 1#1)
    (i : s.Idx) : IsReal (a i) := by
  have e := hr i
  rw [cmpf_apply, broadcastInDim_apply _ hb _ i ix0 (fun d => d.elim0)] at e
  exact isReal_of_abs_lt (a i) e

/-- Under the precondition every entry of the node features and of the first weight matrix is a real number. -/
theorem real_inputs (x : FVec Ideal S50000x128 .f32) (ei : IVec S2x800000 32) (W : FVec Ideal S128x256 .f32)
    (b : FVec Ideal S256 .f32) (W2 : FVec Ideal S256x64 .f32) (b2 : FVec Ideal S64 .f32)
    (h : fn (F := Ideal) x ei W b W2 b2 = fun _ => 1#1) :
    (∀ i, IsReal (x i)) ∧ (∀ i, IsReal (W i)) := by
  have h0 := congrFun h ix0
  dsimp only [fn, fn_part1] at h0
  obtain ⟨h1, -⟩ := IntOp.andi_eq_one.1 h0
  obtain ⟨h2, -⟩ := IntOp.andi_eq_one.1 h1
  obtain ⟨h3, -⟩ := IntOp.andi_eq_one.1 h2
  obtain ⟨hx, hW⟩ := IntOp.andi_eq_one.1 h3
  exact ⟨entry_real x _ (Host.reduce_andi_all _ _ _ _ ix0 hx), entry_real W _ (Host.reduce_andi_all _ _ _ _ ix0 hW)⟩

end Cert.Gcn.Finite

end
-- ==== Proof.KernelHost.lean ====
/-
  What the fused dense unit finds in its operand arrays.

  Before the unit is launched the host part of the program has computed, from the node features `x` and the edge
  list `ei` (row 0 the sources, row 1 the targets), the AGGREGATED FEATURES:

    * `srcRaw`, `dstRaw`: the source / target words of the 800000 edges followed by the 50000 self-loops `0 … 49999`;
    * `wrap r`: a negative word moved up by 50000 (how an array index is normalised before a gather or an indexed update);
    * `deg`: the constant `1.0` added, for every edge, onto entry `wrap (dst e)` of a zero array — the in-degree;
    * `dinv`: `deg ^ (−1/2)` where `deg > 0`, `0` elsewhere;
    * `coefs`: per edge, `dinv` gathered at the source times `dinv` gathered at the target;
    * `aggregated`: rows `wrap (src e)` of `x` gathered (through a narrower float format and back), each scaled by its edge's coefficient, added up on the rows `dst e` of a zero array — a
      128-wide propagation step.

  These are the program's own lines, named, at any float values `F`: that the unit finds them is a fact about
  which buffer holds what, not about arithmetic. The two bias vectors reach the unit re-laid as one-row matrices; the two
  weight matrices reach it as they are.
-/
import proofs.«158620_j51762945852140_2_alg».proof.Proof.Gen.KernelIdeal.Frame
import Idealize.ShloMosaic.Lib.StableHlo.Run

set_option maxRecDepth 16384

noncomputable section

namespace Cert.Gcn.KHost

open Cert.KernelIdeal Cert.KernelIdeal.Facts₀ Idealize.ShloMosaic Idealize.ShloMosaic.TcCoe
open Idealize.SL.Sem Idealize.ShloMosaic.StableHlo

variable {F : FTy → Type} [FloatOps F]

/-- The source words: row 0 of the edge list, then the self-loops `0 … 49999`. -/
abbrev srcRaw (ei : IVec S2x800000 32) : IVec S850000 32 :=
  concatenate S850000 0
    [⟨S800000, shapeCast _ (extractStridedSlice S1x800000 ![0, 0] ei slices_S2x800000_S1x800000_0_0) shapeCasts_S1x800000_S800000⟩,
      ⟨S50000, iotaInDim S50000 32 0⟩] concatenates_S800000_S50000_S850000_d0

/-- The target words: row 1 of the edge list, then the self-loops. -/
abbrev dstRaw (ei : IVec S2x800000 32) : IVec S850000 32 :=
  concatenate S850000 0
    [⟨S800000, shapeCast _ (extractStridedSlice S1x800000 ![1, 0] ei slices_S2x800000_S1x800000_1_0) shapeCasts_S1x800000_S800000⟩,
      ⟨S50000, iotaInDim S50000 32 0⟩] concatenates_S800000_S50000_S850000_d0

/-- An index word normalised: a negative one moved up by the number of nodes. -/
abbrev wrap (r : IVec S850000 32) : IVec S850000 32 :=
  select (cmpi .slt r (broadcastInDim S850000 ![] bcast_S_S850000 (constantI S_ 32 0#32)))
    (addi r (broadcastInDim S850000 ![] bcast_S_S850000 (constantI S_ 32 50000#32))) r

/-- An array of words as a one-column array of start indices. -/
abbrev column (r : IVec S850000 32) : IVec S850000x1 32 :=
  broadcastInDim S850000x1 ![0] bcast_S850000_S850000x1_0 r

/-- The in-degree with the self-loop: ones added onto zeros at the normalised targets. -/
abbrev deg (ei : IVec S2x800000 32) : FVec F S50000 .f32 :=
  Host.scatterAdd scatter_S50000_S850000x1_S850000_n_0_0_1
    (broadcastInDim S50000 ![] bcast_S_S50000 (constant (F := F) S_ .f32 0x00000000#32))
    (column (wrap (dstRaw ei)))
    (broadcastInDim S850000 ![] bcast_S_S850000 (constant (F := F) S_ .f32 0x3F800000#32))

/-- The normaliser: the reciprocal square root of a positive degree, zero elsewhere. -/
abbrev dinv (ei : IVec S2x800000 32) : FVec F S50000 .f32 :=
  select (cmpf (F := F) .ogt (deg ei) (broadcastInDim S50000 ![] bcast_S_S50000 (constant (F := F) S_ .f32 0x00000000#32)))
    (Host.rsqrt (deg ei))
    (broadcastInDim S50000 ![] bcast_S_S50000 (id (constant (F := F) S_ .f32 0x00000000#32)))

/-- The edge coefficients: the normaliser at the source times the normaliser at the target. -/
abbrev coefs (ei : IVec S2x800000 32) : FVec F S850000 .f32 :=
  mulf (Host.gather gather_S50000_S850000x1_S850000_n_0_n_n_0_1_1 (dinv ei) (column (wrap (srcRaw ei))))
    (Host.gather gather_S50000_S850000x1_S850000_n_0_n_n_0_1_1 (dinv ei) (column (wrap (dstRaw ei))))

/-- The aggregated features: zeros, plus on row `dst e` the row `wrap (src e)` of `x` times the edge's coefficient. -/
abbrev aggregated (x : FVec F S50000x128 .f32) (ei : IVec S2x800000 32) : FVec F S50000x128 .f32 :=
  Host.scatterAdd scatter_S50000x128_S850000x1_S850000x128_1_0_0_1
    (broadcastInDim S50000x128 ![] bcast_S_S50000x128 (constant (F := F) S_ .f32 0x00000000#32))
    (column (dstRaw ei))
    (mulf (extf .f32 (Host.gather gather_S50000x128_S850000x1_S850000x128_1_0_n_n_0_1_1128
        (truncf .bf16 x bitsLt_bf16_f32) (column (wrap (srcRaw ei)))) bitsLt_bf16_f32)
      (broadcastInDim S850000x128 ![0, 1] bcast_S850000x1_S850000x128_0_1
        (broadcastInDim S850000x1 ![0] bcast_S850000_S850000x1_0 (coefs ei))))

variable (m : (ℓ : Loc nD τ sig) → Buf (Elt F) ℓ)

set_option maxHeartbeats 4000000 in
set_option maxRecDepth 65536 in
/-- The unit's first operand is the aggregated features of the launch contents of `x` and the edge list. -/
theorem found_aggregated (c : Dev nD) :
    (Gen.V m c (Pipeline.arrRef spec0 0) : FVec F S50000x128 .f32)
      = aggregated (m ((c : Thread nD τ).loc main_arg0)) (m ((c : Thread nD τ).loc main_arg1)) := by
  show (Gen.V m c main_v49 : FVec F S50000x128 .f32) = _
  dsimp only [Gen.V]
  simp only [Gen.hostOps0, Gen.hostOps0_1, Gen.hostOps0_2, List.flatten_cons, List.flatten_nil, List.append_nil,
    List.cons_append, List.nil_append]
  after_results_simp
  rfl

set_option maxHeartbeats 4000000 in
set_option maxRecDepth 65536 in
/-- Its third operand is the first bias vector as a one-row matrix. -/
theorem found_bias1 (c : Dev nD) :
    (Gen.V m c (Pipeline.arrRef spec0 2) : FVec F S1x256 .f32)
      = shapeCast S1x256 (m ((c : Thread nD τ).loc main_arg3) : FVec F S256 .f32) shapeCasts_S256_S1x256 := by
  show (Gen.V m c main_v50 : FVec F S1x256 .f32) = _
  dsimp only [Gen.V]
  simp only [Gen.hostOps0, Gen.hostOps0_1, Gen.hostOps0_2, List.flatten_cons, List.flatten_nil, List.append_nil,
    List.cons_append, List.nil_append]
  after_results_simp
  rfl

set_option maxHeartbeats 4000000 in
set_option maxRecDepth 65536 in
/-- Its fifth operand is the second bias vector as a one-row matrix. -/
theorem found_bias2 (c : Dev nD) :
    (Gen.V m c (Pipeline.arrRef spec0 4) : FVec F S1x64 .f32)
      = shapeCast S1x64 (m ((c : Thread nD τ).loc main_arg5) : FVec F S64 .f32) shapeCasts_S64_S1x64 := by
  show (Gen.V m c main_v51 : FVec F S1x64 .f32) = _
  dsimp only [Gen.V]
  simp only [Gen.hostOps0, Gen.hostOps0_1, Gen.hostOps0_2, List.flatten_cons, List.flatten_nil, List.append_nil,
    List.cons_append, List.nil_append]
  after_results_simp
  rfl

/-- Its second operand is the first weight matrix as launched. -/
theorem found_w1 (c : Dev nD) :
    Gen.V m c (Pipeline.arrRef spec0 1) = m ((c : Thread nD τ).loc main_arg2) := Gen.V_main_arg2 m c

/-- Its fourth operand is the second weight matrix as launched. -/
theorem found_w2 (c : Dev nD) :
    Gen.V m c (Pipeline.arrRef spec0 3) = m ((c : Thread nD τ).loc main_arg4) := Gen.V_main_arg4 m c

end Cert.Gcn.KHost

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.LibTileRows.lean ====
/-
  Reading a tile of rows, operation by operation, at the extended reals.

  A two-axis array `X` of `M` rows is described by its rows: a family `xr p k` with `X (p, k) = xr p k`. Each lemma
  below takes such a description of an operation's operands and returns the description of its result, so that a
  chain of operations is read by composing the lemmas, never by rewriting inside a large term. Everything is stated
  for arbitrary extents, so a 4096-row tile and a 262144-row array are read by the same lemmas.

  At the extended reals a change of float format is the identity, a product into a zero accumulator is the plain
  sum of products, and the rectifier is the maximum with zero.
-/
import proofs.«158620_j51762945852140_2_alg».proof.Proof.LibPlainDot
import Idealize.ShloMosaic.Lib.ValueLayout
import Idealize.ShloMosaic.Lib.Pipeline.Value

noncomputable section

namespace Cert.TileRows

open Idealize.ShloMosaic Idealize.ShloMosaic.ValueIdx

variable {M K N : Nat}

/-- Row `p` of a two-axis array. -/
abbrev rowOf {M K : Nat} (X : (⟨2, ![M, K]⟩ : Shape).Idx → EReal) (p : Fin M) : Fin K → EReal := fun k => X (ix2 p k)
/-- A two-axis array as a matrix. -/
abbrev matOf {K N : Nat} (w : (⟨2, ![K, N]⟩ : Shape).Idx → EReal) : Fin K → Fin N → EReal := fun k q => w (ix2 k q)
/-- A one-row array as a row. -/
abbrev vecOf {N : Nat} (b : (⟨2, ![1, N]⟩ : Shape).Idx → EReal) : Fin N → EReal := fun q => b (ix2 (0 : Fin 1) q)
/-- A one-axis array as a row. -/
abbrev vec1 {N : Nat} (b : (⟨1, ![N]⟩ : Shape).Idx → EReal) : Fin N → EReal := fun q => b (ix1 q)

/-- A vector made a one-row matrix is, as a row, the vector. -/
theorem vecOf_cast {N : Nat} (a : (⟨1, ![N]⟩ : Shape).Idx → EReal) (h : (⟨1, ![N]⟩ : Shape).ShapeCasts ⟨2, ![1, N]⟩) :
    vecOf (shapeCast ⟨2, ![1, N]⟩ a h) = vec1 a := funext fun q => shapeCast_a_1a_apply a h 0 q

/-- A re-laying to the same shape changes nothing. -/
theorem cast_rows {φ : FTy} (X : FVec Ideal ⟨2, ![M, K]⟩ φ) (h : (⟨2, ![M, K]⟩ : Shape).ShapeCasts ⟨2, ![M, K]⟩)
    (xr : Fin M → Fin K → EReal) (hX : ∀ p k, X (ix2 p k) = xr p k) :
    ∀ p k, shapeCast ⟨2, ![M, K]⟩ X h (ix2 p k) = xr p k := fun p k => by
  rw [shapeCast_self]; exact hX p k

/-- A change of float format changes nothing. -/
theorem trunc_rows {φ ψ : FTy} (X : FVec Ideal ⟨2, ![M, K]⟩ φ) (h : ψ.bits < φ.bits)
    (xr : Fin M → Fin K → EReal) (hX : ∀ p k, X (ix2 p k) = xr p k) :
    ∀ p k, (truncf ψ X h : FVec Ideal ⟨2, ![M, K]⟩ ψ) (ix2 p k) = xr p k := fun p k => hX p k

/-- A plain product of a tile of rows with a re-laid `K × N` matrix, into the zero accumulator: row `p` of the result
    is the row `p` of the tile times the matrix. -/
theorem mm_rows {φ₁ φ₂ : FTy} (d : DotDims ⟨2, ![M, K]⟩ ⟨2, ![K, N]⟩ ⟨2, ![M, N]⟩) (hd : Cert.PlainDot.IsPlain d)
    (prec : Option ContractPrecision) (X : FVec Ideal ⟨2, ![M, K]⟩ φ₁) (w : FVec Ideal ⟨2, ![K, N]⟩ φ₂)
    (hw : (⟨2, ![K, N]⟩ : Shape).ShapeCasts ⟨2, ![K, N]⟩)
    (xr : Fin M → Fin K → EReal) (hX : ∀ p k, X (ix2 p k) = xr p k) :
    ∀ p q, matmul d prec X (shapeCast ⟨2, ![K, N]⟩ w hw) (constant ⟨2, ![M, N]⟩ .f32 0x00000000#32) (ix2 p q)
      = ∑ k : Fin K, xr p k * w (ix2 k q) := fun p q => by
  refine (Ideal.matmul_constant_zero_apply d prec X _ (ix2 p q)).trans ?_
  refine (Cert.PlainDot.sum_contr d hd X (shapeCast ⟨2, ![K, N]⟩ w hw) p q).trans ?_
  refine Finset.sum_congr rfl fun k _ => ?_
  rw [hX p k, shapeCast_self]

/-- Adding a one-row bias, re-laid and spread over the rows. -/
theorem bias_rows (Y : FVec Ideal ⟨2, ![M, N]⟩ .f32) (b : FVec Ideal ⟨2, ![1, N]⟩ .f32)
    (hb : (⟨2, ![1, N]⟩ : Shape).ShapeCasts ⟨2, ![1, N]⟩) (hbc : (⟨2, ![1, N]⟩ : Shape).Broadcasts ⟨2, ![M, N]⟩)
    (yr : Fin M → Fin N → EReal) (hY : ∀ p q, Y (ix2 p q) = yr p q) :
    ∀ p q, addf Y (broadcastTo ⟨2, ![M, N]⟩ (shapeCast ⟨2, ![1, N]⟩ b hb) hbc) (ix2 p q) = yr p q + b (ix2 (0 : Fin 1) q) := fun p q => by
  rw [addf_apply, hY p q, broadcastTo_1b_ab_apply, shapeCast_self]

/-- Adding two tiles. -/
theorem add_rows (Y Z : FVec Ideal ⟨2, ![M, N]⟩ .f32) (yr zr : Fin M → Fin N → EReal)
    (hY : ∀ p q, Y (ix2 p q) = yr p q) (hZ : ∀ p q, Z (ix2 p q) = zr p q) :
    ∀ p q, addf Y Z (ix2 p q) = yr p q + zr p q := fun p q => by
  rw [addf_apply, hY p q, hZ p q]

/-- The rectifier against a splat of the zero word. -/
theorem relu_rows (Y : FVec Ideal ⟨2, ![M, N]⟩ .f32) (yr : Fin M → Fin N → EReal) (hY : ∀ p q, Y (ix2 p q) = yr p q) :
    ∀ p q, maximumf Y (broadcast ⟨2, ![M, N]⟩ (Scalar.ofBits (F := Ideal) .f32 0x00000000#32)) (ix2 p q) = max (yr p q) 0 := fun p q => by
  rw [maximumf_apply, hY p q, broadcast_apply]
  show max (yr p q) (Ideal.ofBits .f32 0x00000000#32) = _
  rw [Ideal.ofBits_zero_f32]

/-- The rectifier against another tile known to be zero. -/
theorem relu_rows_of (Y Z : FVec Ideal ⟨2, ![M, N]⟩ .f32) (yr : Fin M → Fin N → EReal) (hY : ∀ p q, Y (ix2 p q) = yr p q)
    (hZ : ∀ p q, Z (ix2 p q) = 0) :
    ∀ p q, maximumf Y Z (ix2 p q) = max (yr p q) 0 := fun p q => by
  rw [maximumf_apply, hY p q, hZ p q]

/-- A splat of the zero word is zero everywhere. -/
theorem zero_rows : ∀ (p : Fin M) (q : Fin N), (broadcast ⟨2, ![M, N]⟩ (Scalar.ofBits (F := Ideal) .f32 0x00000000#32) : FVec Ideal ⟨2, ![M, N]⟩ .f32) (ix2 p q) = 0 := fun p q => by
  rw [broadcast_apply]
  show Ideal.ofBits .f32 0x00000000#32 = _
  rw [Ideal.ofBits_zero_f32]

/-- Columns `o … o + m − 1` cut out of a tile. -/
theorem cols_rows {m : Nat} (o : Nat) (Y : FVec Ideal ⟨2, ![M, N]⟩ .f32) (h : (⟨2, ![M, N]⟩ : Shape).Slices ![0, o] ⟨2, ![M, m]⟩)
    (hle : o + m ≤ N) (yr : Fin M → Fin N → EReal) (hY : ∀ p q, Y (ix2 p q) = yr p q) :
    ∀ (p : Fin M) (j : Fin m), extractStridedSlice ⟨2, ![M, m]⟩ ![0, o] Y h (ix2 p j) = yr p ⟨o + j.val, by omega⟩ := fun p j => by
  rw [slice2_axis1_apply o Y h p j ⟨o + j.val, by omega⟩ rfl]; exact hY p _

/-- Two tiles set side by side along the columns: row `p` of the result is row `p` of the first followed by row `p` of
    the second. -/
theorem concat_rows {A B C : Nat} (hC : A + B = C) (Y : (⟨2, ![M, A]⟩ : Shape).Idx → EReal) (Z : (⟨2, ![M, B]⟩ : Shape).Idx → EReal)
    (h : Shape.Concatenates [(⟨2, ![M, A]⟩ : Shape), ⟨2, ![M, B]⟩] ⟨2, ![M, C]⟩ (1 : Fin 2))
    (yr : Fin M → Fin A → EReal) (zr : Fin M → Fin B → EReal)
    (hY : ∀ p k, Y (ix2 p k) = yr p k) (hZ : ∀ p k, Z (ix2 p k) = zr p k) :
    ∀ (p : Fin M) (j : Fin C), concatenate ⟨2, ![M, C]⟩ (1 : Fin 2) [⟨⟨2, ![M, A]⟩, Y⟩, ⟨⟨2, ![M, B]⟩, Z⟩] h (ix2 p j)
      = Fin.append (yr p) (zr p) (Fin.cast hC.symm j) := by
  intro p j
  by_cases hj : j.val < A
  · have e1 := concatenate_pair_apply_left (1 : Fin 2) Y Z h (ix2 p j) rfl (ix2 p ⟨j.val, hj⟩)
      (fun b => by match b with | ⟨0, _⟩ => rfl | ⟨1, _⟩ => rfl)
    rw [e1, hY]
    have e : Fin.cast hC.symm j = Fin.castAdd B ⟨j.val, hj⟩ := Fin.ext rfl
    rw [e, Fin.append_left]
  · have hjB : j.val - A < B := by have := j.isLt; omega
    have e1 := concatenate_pair_apply_right (1 : Fin 2) Y Z h (ix2 p j) rfl rfl (ix2 p ⟨j.val - A, hjB⟩)
      (fun b hb => by match b with | ⟨0, _⟩ => rfl | ⟨1, _⟩ => exact absurd rfl hb)
      (by show (j.val - A) + A = j.val; omega)
    rw [e1, hZ]
    have e : Fin.cast hC.symm j = Fin.natAdd A ⟨j.val - A, hjB⟩ := Fin.ext (by show j.val = A + (j.val - A); omega)
    rw [e, Fin.append_right]

end Cert.TileRows

end
-- ==== Proof.DenseHead.lean ====
/-
  The dense head of the network on one row.

  After the graph aggregation every node `n` carries a row `z` of 256 pre-activation sums. The head adds the bias `b`,
  rectifies, contracts with the second weight matrix `W2` and adds the second bias `b2`:

      outRow z b W2 b2 q = (∑ h, max (z h + b h) 0 · W2 h q) + b2 q.

  The tiled unit and the reference compute exactly this function of `z`; they differ only in how `z` is obtained
  (aggregate the 128 input features and then contract with `W`, or contract first and aggregate the 256 products).
  Nothing here needs the entries to be finite: the head is the same expression on both sides.
-/
import Idealize.ShloMosaic.PureOps.Ideal

noncomputable section

open scoped BigOperators

namespace Cert.Gcn

/-- The head on one row of pre-activations `z`: bias, rectifier, second product, second bias. -/
def outRow {H C : Nat} (z : Fin H → EReal) (b : Fin H → EReal) (W2 : Fin H → Fin C → EReal) (b2 : Fin C → EReal)
    (q : Fin C) : EReal :=
  (∑ h : Fin H, max (z h + b h) 0 * W2 h q) + b2 q

/-- The head depends on its four operands only through their values. -/
theorem outRow_congr {H C : Nat} {z z' : Fin H → EReal} {b b' : Fin H → EReal} {W2 W2' : Fin H → Fin C → EReal}
    {b2 b2' : Fin C → EReal} (hz : ∀ h, z h = z' h) (hb : ∀ h, b h = b' h) (hW2 : ∀ h q, W2 h q = W2' h q)
    (hb2 : ∀ q, b2 q = b2' q) (q : Fin C) : outRow z b W2 b2 q = outRow z' b' W2' b2' q := by
  have e1 : z = z' := funext hz
  have e2 : b = b' := funext hb
  have e3 : W2 = W2' := funext fun h => funext fun q => hW2 h q
  have e4 : b2 = b2' := funext hb2
  rw [e1, e2, e3, e4]

end Cert.Gcn

end
-- ==== Proof.TileValue.lean ====
/-
  What one tile of the fused dense unit stores, entry by entry.

  At a grid point the unit holds 10000 rows `a p` of aggregated features (128 wide), the whole first weight matrix
  `W` (128 × 256), the bias row `b`, the whole second weight matrix `W2` (256 × 64) and the bias row `b2`. Its one
  store writes, at row `p` and column `q`,

      (∑ h, max ((∑ k, a p k · W k h) + b h) 0 · W2 h q) + b2 q

  — the head `outRow` on the row of pre-activations `z h = ∑ k, a p k · W k h`. At the extended reals both products
  into a zero accumulator are plain sums of products and the rectifier is the maximum with zero; the tile is read
  row by row through each operation in turn.
-/
import proofs.«158620_j51762945852140_2_alg».proof.Proof.Gen.KernelIdeal.Skeleton
import proofs.«158620_j51762945852140_2_alg».proof.Proof.LibTileRows
import proofs.«158620_j51762945852140_2_alg».proof.Proof.DenseHead

noncomputable section

open scoped BigOperators

namespace Cert.Gcn.Tile

open Idealize.ShloMosaic Idealize.ShloMosaic.ValueIdx Cert.KernelIdeal Cert.KernelIdeal.Gen Cert.TileRows

/-- The first product contracts the tile's columns against the rows of `W`: a plain product. -/
theorem plain_first : Cert.PlainDot.IsPlain dot_S10000x128_S128x256_S10000x256_1_0_0_1_n_n := ⟨rfl, rfl, rfl, rfl, rfl, rfl⟩

/-- So does the second, against the rows of `W2`. -/
theorem plain_second : Cert.PlainDot.IsPlain dot_S10000x256_S256x64_S10000x64_1_0_0_1_n_n := ⟨rfl, rfl, rfl, rfl, rfl, rfl⟩

/-- The stored value at row `p`, column `q` of the tile is the head on the row of pre-activations
    `z h = ∑ k, a (p, k) · W (k, h)`. -/
theorem stored_apply (a : Vec Ideal S10000x128 .f32) (W : Vec Ideal S128x256 .f32) (b : Vec Ideal S1x256 .f32)
    (W2 : Vec Ideal S256x64 .f32) (b2 : Vec Ideal S1x64 .f32) (p : Fin 10000) (q : Fin 64) :
    k0_pay1 (F := Ideal) a W b W2 b2 (ix2 p q)
      = outRow (fun h : Fin 256 => ∑ k : Fin 128, a (ix2 p k) * W (ix2 k h)) (fun h => b (ix2 (0 : Fin 1) h))
          (fun h q => W2 (ix2 h q)) (fun q => b2 (ix2 (0 : Fin 1) q)) q := by
  unfold k0_pay1
  -- the tile's rows pass the same-shape cast unchanged
  have h1 := cast_rows (φ := .f32) a shapeCasts_S10000x128_S10000x128 (fun p k => a (ix2 p k)) (fun _ _ => rfl)
  -- first product: row p times W
  have h3 : ∀ (p : Fin 10000) (h : Fin 256),
      matmul (F := Ideal) (φ₁ := .f32) (φ₂ := .f32) dot_S10000x128_S128x256_S10000x256_1_0_0_1_n_n (some .fp32)
        (shapeCast S10000x128 a shapeCasts_S10000x128_S10000x128) W
        (constant S10000x256 .f32 0x00000000#32) (ix2 p h) = ∑ k : Fin 128, a (ix2 p k) * W (ix2 k h) := fun p h => by
    refine (Cert.PlainDot.matmul_zero_apply _ plain_first _ _ _ p h).trans ?_
    exact Finset.sum_congr rfl fun k _ => by rw [h1]
  -- bias, rectifier
  have h7 := bias_rows _ b shapeCasts_S1x256_S1x256 broadcasts_S1x256_S10000x256 _ h3
  have h9 := relu_rows _ _ h7
  -- second product: the rectified row times W2
  have h11 : ∀ (p : Fin 10000) (q : Fin 64),
      matmul (F := Ideal) (φ₁ := .f32) (φ₂ := .f32) dot_S10000x256_S256x64_S10000x64_1_0_0_1_n_n (some .fp32)
        (maximumf (addf (matmul (F := Ideal) (φ₁ := .f32) (φ₂ := .f32) dot_S10000x128_S128x256_S10000x256_1_0_0_1_n_n (some .fp32) (shapeCast S10000x128 a shapeCasts_S10000x128_S10000x128) W
            (constant S10000x256 .f32 0x00000000#32)) (broadcastTo S10000x256 (shapeCast S1x256 b shapeCasts_S1x256_S1x256) broadcasts_S1x256_S10000x256))
          (broadcast S10000x256 (Scalar.ofBits (F := Ideal) .f32 0x00000000#32))) W2
        (constant S10000x64 .f32 0x00000000#32) (ix2 p q)
      = ∑ h : Fin 256, max ((∑ k : Fin 128, a (ix2 p k) * W (ix2 k h)) + b (ix2 (0 : Fin 1) h)) 0 * W2 (ix2 h q) := fun p q => by
    refine (Cert.PlainDot.matmul_zero_apply _ plain_second _ _ _ p q).trans ?_
    exact Finset.sum_congr rfl fun h _ => by rw [h9]
  have h15 := bias_rows _ b2 shapeCasts_S1x64_S1x64 broadcasts_S1x64_S10000x64 _ h11
  exact h15 p q

end Cert.Gcn.Tile

end
-- ==== Proof.KernelArray.lean ====
/-
  From the tiles to the whole array.

  The fused dense unit runs at 5 grid points; point `t` reads rows `10000·t … 10000·t + 9999` of the aggregated
  features (all 128 columns), the whole of `W`, `b`, `W2`, `b2` at every point, and writes rows
  `10000·t … 10000·t + 9999` of the `50000 × 64` result. The five row blocks tile the result, so the result array
  ends holding ONE function of the arrays the unit finds: at `(n, q)` the head `outRow` on the row of pre-activations
  `z h = ∑ k, A (n, k) · W (k, h)` (`whole`). A block's coordinate is always block index × block size + the coordinate
  inside the block; row `r` lies in the block of point `r / 10000`.
-/
import proofs.«158620_j51762945852140_2_alg».proof.Proof.Gen.KernelIdeal.Value
import proofs.«158620_j51762945852140_2_alg».proof.Proof.TileValue

set_option maxRecDepth 16384

noncomputable section

open scoped BigOperators

namespace Cert.Gcn.KArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The result array as one function of the five arrays the unit reads: the head on each row's pre-activations. -/
def whole (A : S50000x128.Idx → EReal) (W : S128x256.Idx → EReal) (b : S1x256.Idx → EReal) (W2 : S256x64.Idx → EReal)
    (b2 : S1x64.Idx → EReal) : S50000x64.Idx → EReal := fun i =>
  outRow (fun h : Fin 256 => ∑ k : Fin 128, A (ix2 (⟨(i 0).val, (i 0).isLt⟩ : Fin 50000) k) * W (ix2 k h))
    (fun h => b (ix2 (0 : Fin 1) h)) (fun h q => W2 (ix2 h q)) (fun q => b2 (ix2 (0 : Fin 1) q))
    (⟨(i 1).val, (i 1).isLt⟩ : Fin 64)

theorem zero_offsets : (![0, 0] : Fin 2 → Nat) = fun _ => 0 := funext fun a => by fin_cases a <;> rfl

/-- The stored tile at any index of the tile: the head on that row of the tile. -/
theorem stored_at (a : Vec Ideal S10000x128 .f32) (W : Vec Ideal S128x256 .f32) (b : Vec Ideal S1x256 .f32)
    (W2 : Vec Ideal S256x64 .f32) (b2 : Vec Ideal S1x64 .f32) (j : S10000x64.Idx) :
    k0_pay1 (F := Ideal) a W b W2 b2 j
      = outRow (fun h : Fin 256 => ∑ k : Fin 128, a (ix2 (⟨(j 0).val, (j 0).isLt⟩ : Fin 10000) k) * W (ix2 k h))
          (fun h => b (ix2 (0 : Fin 1) h)) (fun h q => W2 (ix2 h q)) (fun q => b2 (ix2 (0 : Fin 1) q))
          (⟨(j 1).val, (j 1).isLt⟩ : Fin 64) := by
  obtain ⟨p, q, rfl⟩ : ∃ (p : Fin 10000) (q : Fin 64), j = ix2 p q := ⟨j 0, j 1, eq_ix2 j⟩
  exact Cert.Gcn.Tile.stored_apply a W b W2 b2 p q

/-- The printed index maps, decided over the five points: the tile of rows moves with the output's row block, every
    other window stays at block 0, and the output's row block index is at most 4. -/
theorem index_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 4 ∧ win0_5.index t (1 : Fin 2) = 0 :=
  (by decide +kernel : ∀ t : Fin grid0.N, _)

/-- Every row block is some point's. -/
theorem index_onto : ∀ q0 : Fin 5, ∃ t : Fin cfg0.N, win0_5.index t = ![q0.val, 0] :=
  (by decide +kernel : ∀ q0 : Fin 5, ∃ t : Fin grid0.N, win0_5.index t = ![q0.val, 0])

/-- The same, with each operand read through any description of its rows: if row `j 0` of the tile contracted with `W`
    is `z`, and the other operands read as `b'`, `W2'`, `b2'`, the stored value at `j` is the head on those. -/
theorem stored_rows (a : Vec Ideal S10000x128 .f32) (W : Vec Ideal S128x256 .f32) (b : Vec Ideal S1x256 .f32)
    (W2 : Vec Ideal S256x64 .f32) (b2 : Vec Ideal S1x64 .f32) (j : S10000x64.Idx)
    (z : Fin 256 → EReal) (b' : Fin 256 → EReal) (W2' : Fin 256 → Fin 64 → EReal) (b2' : Fin 64 → EReal)
    (hz : ∀ h : Fin 256, ∑ k : Fin 128, a (ix2 (⟨(j 0).val, (j 0).isLt⟩ : Fin 10000) k) * W (ix2 k h) = z h)
    (hb : ∀ h : Fin 256, b (ix2 (0 : Fin 1) h) = b' h) (hW2 : ∀ (h : Fin 256) (q : Fin 64), W2 (ix2 h q) = W2' h q)
    (hb2 : ∀ q : Fin 64, b2 (ix2 (0 : Fin 1) q) = b2' q) :
    k0_pay1 (F := Ideal) a W b W2 b2 j = outRow z b' W2' b2' (⟨(j 1).val, (j 1).isLt⟩ : Fin 64) := by
  rw [stored_at]
  have e1 : (fun h : Fin 256 => ∑ k : Fin 128, a (ix2 (⟨(j 0).val, (j 0).isLt⟩ : Fin 10000) k) * W (ix2 k h)) = z := funext hz
  have e2 : (fun h : Fin 256 => b (ix2 (0 : Fin 1) h)) = b' := funext hb
  have e3 : (fun (h : Fin 256) (q : Fin 64) => W2 (ix2 h q)) = W2' := funext fun h => funext fun q => hW2 h q
  have e4 : (fun q : Fin 64 => b2 (ix2 (0 : Fin 1) q)) = b2' := funext hb2
  rw [e1, e2, e3, e4]

/-! ## Where a point's blocks lie in their arrays -/

/-- Row `p` of point `t`'s tile of aggregated features is row `n = 10000 · (block index) + p` of the array. -/
theorem emb_tile (t : Fin cfg0.N) (p : Fin 10000) (k : Fin 128) (n : Fin 50000)
    (hn : n.val = win0_5.index t (0 : Fin 2) * 10000 + p.val) :
    ((cfg0.win 0).blk t).view.emb (ix2 p k) = ix2 n k := by
  have e0 : win0_0.index t (0 : Fin 2) = win0_5.index t (0 : Fin 2) := (index_facts t).1
  have e1 : win0_0.index t (1 : Fin 2) = 0 := (index_facts t).2.1
  funext a; apply Fin.ext
  match a with
  | ⟨0, _⟩ =>
    show win0_0.index t (0 : Fin 2) * 10000 + 1 * p.val = n.val
    rw [e0, hn]; omega
  | ⟨1, _⟩ =>
    show win0_0.index t (1 : Fin 2) * 128 + 1 * k.val = k.val
    rw [e1]; omega

/-- Every point's block of the first weight matrix is the whole matrix. -/
theorem emb_w1 (t : Fin cfg0.N) (k : Fin 128) (h : Fin 256) :
    ((cfg0.win 1).blk t).view.emb (ix2 k h) = ix2 k h := by
  have e0 : win0_1.index t (0 : Fin 2) = 0 := (index_facts t).2.2.1
  have e1 : win0_1.index t (1 : Fin 2) = 0 := (index_facts t).2.2.2.1
  funext a; apply Fin.ext
  match a with
  | ⟨0, _⟩ =>
    show win0_1.index t (0 : Fin 2) * 128 + 1 * k.val = k.val
    rw [e0]; omega
  | ⟨1, _⟩ =>
    show win0_1.index t (1 : Fin 2) * 256 + 1 * h.val = h.val
    rw [e1]; omega

/-- Every point's block of the first bias row is the whole row. -/
theorem emb_b1 (t : Fin cfg0.N) (z : Fin 1) (h : Fin 256) :
    ((cfg0.win 2).blk t).view.emb (ix2 z h) = ix2 z h := by
  have e0 : win0_2.index t (0 : Fin 2) = 0 := (index_facts t).2.2.2.2.1
  have e1 : win0_2.index t (1 : Fin 2) = 0 := (index_facts t).2.2.2.2.2.1
  funext a; apply Fin.ext
  match a with
  | ⟨0, _⟩ =>
    show win0_2.index t (0 : Fin 2) * 1 + 1 * z.val = z.val
    rw [e0]; omega
  | ⟨1, _⟩ =>
    show win0_2.index t (1 : Fin 2) * 256 + 1 * h.val = h.val
    rw [e1]; omega

/-- Every point's block of the second weight matrix is the whole matrix. -/
theorem emb_w2 (t : Fin cfg0.N) (h : Fin 256) (q : Fin 64) :
    ((cfg0.win 3).blk t).view.emb (ix2 h q) = ix2 h q := by
  have e0 : win0_3.index t (0 : Fin 2) = 0 := (index_facts t).2.2.2.2.2.2.1
  have e1 : win0_3.index t (1 : Fin 2) = 0 := (index_facts t).2.2.2.2.2.2.2.1
  funext a; apply Fin.ext
  match a with
  | ⟨0, _⟩ =>
    show win0_3.index t (0 : Fin 2) * 256 + 1 * h.val = h.val
    rw [e0]; omega
  | ⟨1, _⟩ =>
    show win0_3.index t (1 : Fin 2) * 64 + 1 * q.val = q.val
    rw [e1]; omega

/-- Every point's block of the second bias row is the whole row. -/
theorem emb_b2 (t : Fin cfg0.N) (z : Fin 1) (q : Fin 64) :
    ((cfg0.win 4).blk t).view.emb (ix2 z q) = ix2 z q := by
  have e0 : win0_4.index t (0 : Fin 2) = 0 := (index_facts t).2.2.2.2.2.2.2.2.1
  have e1 : win0_4.index t (1 : Fin 2) = 0 := (index_facts t).2.2.2.2.2.2.2.2.2.1
  funext a; apply Fin.ext
  match a with
  | ⟨0, _⟩ =>
    show win0_4.index t (0 : Fin 2) * 1 + 1 * z.val = z.val
    rw [e0]; omega
  | ⟨1, _⟩ =>
    show win0_4.index t (1 : Fin 2) * 64 + 1 * q.val = q.val
    rw [e1]; omega

/-! ## A point's blocks of ANY five arrays, read -/

theorem read_tile (A : S50000x128.Idx → EReal) (t : Fin cfg0.N) (p : Fin 10000) (k : Fin 128) (n : Fin 50000)
    (hn : n.val = win0_5.index t (0 : Fin 2) * 10000 + p.val) :
    ((cfg0.win 0).blk t).view.read (Elt Ideal) A (ix2 p k) = A (ix2 n k) := by
  show A (((cfg0.win 0).blk t).view.emb (ix2 p k)) = _
  rw [emb_tile t p k n hn]

theorem read_w1 (W : S128x256.Idx → EReal) (t : Fin cfg0.N) (k : Fin 128) (h : Fin 256) :
    ((cfg0.win 1).blk t).view.read (Elt Ideal) W (ix2 k h) = W (ix2 k h) := by
  show W (((cfg0.win 1).blk t).view.emb (ix2 k h)) = _
  rw [emb_w1 t k h]

theorem read_b1 (b : S1x256.Idx → EReal) (t : Fin cfg0.N) (z : Fin 1) (h : Fin 256) :
    ((cfg0.win 2).blk t).view.read (Elt Ideal) b (ix2 z h) = b (ix2 z h) := by
  show b (((cfg0.win 2).blk t).view.emb (ix2 z h)) = _
  rw [emb_b1 t z h]

theorem read_w2 (W2 : S256x64.Idx → EReal) (t : Fin cfg0.N) (h : Fin 256) (q : Fin 64) :
    ((cfg0.win 3).blk t).view.read (Elt Ideal) W2 (ix2 h q) = W2 (ix2 h q) := by
  show W2 (((cfg0.win 3).blk t).view.emb (ix2 h q)) = _
  rw [emb_w2 t h q]

theorem read_b2 (b2 : S1x64.Idx → EReal) (t : Fin cfg0.N) (z : Fin 1) (q : Fin 64) :
    ((cfg0.win 4).blk t).view.read (Elt Ideal) b2 (ix2 z q) = b2 (ix2 z q) := by
  show b2 (((cfg0.win 4).blk t).view.emb (ix2 z q)) = _
  rw [emb_b2 t z q]

/-! ## What a point writes back -/

/-- The tile stored at point `t`, for ANY five arrays the unit might find, is block `t` of `whole` of those arrays. -/
theorem tile_of_arrays (A : S50000x128.Idx → EReal) (W : S128x256.Idx → EReal) (b : S1x256.Idx → EReal)
    (W2 : S256x64.Idx → EReal) (b2 : S1x64.Idx → EReal) (t : Fin cfg0.N) :
    (cfg0.win 5).cut (grid0.coords t)
        (k0_pay1 (F := Ideal) (((cfg0.win 0).blk t).view.read (Elt Ideal) A) (((cfg0.win 1).blk t).view.read (Elt Ideal) W)
          (((cfg0.win 2).blk t).view.read (Elt Ideal) b) (((cfg0.win 3).blk t).view.read (Elt Ideal) W2)
          (((cfg0.win 4).blk t).view.read (Elt Ideal) b2))
      = ((cfg0.win 5).blk t).view.read (Elt Ideal) (whole A W b W2 b2) := by
  funext j
  have hle : win0_5.index t (0 : Fin 2) ≤ 4 := (index_facts t).2.2.2.2.2.2.2.2.2.2.1
  have hc0 : win0_5.index t (1 : Fin 2) = 0 := (index_facts t).2.2.2.2.2.2.2.2.2.2.2
  have hj0 : (j 0).val < 10000 := (j 0).isLt
  have hj1 : (j 1).val < 64 := (j 1).isLt
  -- the row and the column of the array that this entry of the block is
  obtain ⟨n, hn⟩ : ∃ n : Fin 50000, n.val = win0_5.index t (0 : Fin 2) * 10000 + (j 0).val :=
    ⟨⟨win0_5.index t (0 : Fin 2) * 10000 + (j 0).val, by omega⟩, rfl⟩
  have en : (⟨((((cfg0.win 5).blk t).view.emb j) 0).val, ((((cfg0.win 5).blk t).view.emb j) 0).isLt⟩ : Fin 50000) = n :=
    Fin.ext (by
      show win0_5.index t (0 : Fin 2) * 10000 + 1 * (j 0).val = n.val
      rw [hn]; omega)
  have eq : (⟨((((cfg0.win 5).blk t).view.emb j) 1).val, ((((cfg0.win 5).blk t).view.emb j) 1).isLt⟩ : Fin 64)
      = ⟨(j 1).val, hj1⟩ :=
    Fin.ext (by
      show win0_5.index t (1 : Fin 2) * 64 + 1 * (j 1).val = (j 1).val
      rw [hc0]; omega)
  show k0_pay1 (F := Ideal) _ _ _ _ _ j = whole A W b W2 b2 (((cfg0.win 5).blk t).view.emb j)
  refine (stored_rows _ _ _ _ _ j (fun h => ∑ k : Fin 128, A (ix2 n k) * W (ix2 k h)) (fun h => b (ix2 (0 : Fin 1) h))
    (fun h q => W2 (ix2 h q)) (fun q => b2 (ix2 (0 : Fin 1) q))
    (fun h => Finset.sum_congr rfl fun k _ => by rw [read_tile A t ⟨(j 0).val, hj0⟩ k n hn, read_w1 W t k h])
    (fun h => read_b1 b t 0 h) (fun h q => read_w2 W2 t h q) (fun q => read_b2 b2 t 0 q)).trans ?_
  unfold whole
  rw [en, eq]
/-- WHAT POINT `t` WRITES BACK is block `t` of `whole` of the arrays the unit finds. -/
theorem flushed_eq (c : Dev nD) (t : Fin cfg0.N) :
    (dats m 0 c).flushed 5 t
      = ((cfg0.win 5).blk t).view.read (Elt Ideal)
          (whole (V m c (Pipeline.arrRef spec0 0)) (V m c (Pipeline.arrRef spec0 1)) (V m c (Pipeline.arrRef spec0 2))
            (V m c (Pipeline.arrRef spec0 3)) (V m c (Pipeline.arrRef spec0 4))) := by
  rw [Cert.KernelIdeal.Value.flushed5]
  unfold out0_5
  rw [View.canon_unit_zero zero_offsets]
  simp only [View.ld_unit_zero (S := S10000x128) zero_offsets, View.ld_unit_zero (S := S128x256) zero_offsets,
    View.ld_unit_zero (S := S1x256) zero_offsets, View.ld_unit_zero (S := S256x64) zero_offsets,
    View.ld_unit_zero (S := S1x64) zero_offsets]
  exact tile_of_arrays _ _ _ _ _ t

/-! ## The five row blocks tile the result -/

/-- An index of the result is in point `t`'s block iff each coordinate is in the block's range on its axis. -/
theorem mem_block (t : Fin cfg0.N) (i : S50000x64.Idx) :
    i ∈ ((cfg0.win 5).blk t).view.set ↔ ∀ a : Fin 2, win0_5.index t a * S10000x64.size a ≤ (i a).val
      ∧ (i a).val < win0_5.index t a * S10000x64.size a + S10000x64.size a := by
  show i ∈ ((View.whole main_v52).slice (win0_5.rect t)).set ↔ _
  rw [View.set_slice_whole, Rect.mem_set_unit]
  exact Iff.rfl

/-- Every index of the result lies in some point's block: row `r` in the block of point `r / 10000`. -/
theorem covered (i : S50000x64.Idx) :
    ∃ t : Fin cfg0.N, (cfg0.win 5).flush t = true ∧ i ∈ ((cfg0.win 5).blk t).view.set := by
  have hi0 : (i 0).val < 50000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_block]
  intro a
  match a with
  | ⟨0, _⟩ =>
    show win0_5.index t (0 : Fin 2) * 10000 ≤ (i 0).val ∧ (i 0).val < win0_5.index t (0 : Fin 2) * 10000 + 10000
    rw [q0]; omega
  | ⟨1, _⟩ =>
    show win0_5.index t (1 : Fin 2) * 64 ≤ (i 1).val ∧ (i 1).val < win0_5.index t (1 : Fin 2) * 64 + 64
    rw [q1]; omega

/-- THE RESULT ARRAY after the run is `whole` of the arrays the unit finds. -/
theorem final (c : Dev nD) :
    (dats m 0 c).arrAt 5 cfg0.N
      = whole (V m c (Pipeline.arrRef spec0 0)) (V m c (Pipeline.arrRef spec0 1)) (V m c (Pipeline.arrRef spec0 2))
          (V m c (Pipeline.arrRef spec0 3)) (V m c (Pipeline.arrRef spec0 4)) :=
  (dats m 0 c).arrAt_eq_of_cover 5 _ (fun t _ => flushed_eq m c t) covered

end Cert.Gcn.KArray

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibPropagate.lean ====
/-
  A graph propagation step commutes with a product by a matrix on the feature axis.

  One propagation step on an `[N, F]` array `h` is `h' (n, f) = ∑ { e : col e = n }  h (row e, f) · ν e`: a gather of whole
  rows (`row e`, clamped), a scale by the edge's coefficient `ν e`, and an accumulating scatter onto the rows `col e`
  (`hop`, over the dimension numbers of `RowOps`; `hop_apply` reads it at an index). The rows an edge reads and
  writes depend on the two index arrays only, never on the column `f`, so the step acts on each column separately
  and is linear in it. Hence, for REAL entries `r`, real coefficients `ν` and a real `[K, J]` matrix `w`,

      hop (r · w)  =  (hop r) · w          (`hop_contract`, with `hop_real`: the step of a real array is real)

  where `r · w` is the matrix product `contract r w (n, j) = ∑ k, r (n, k) · w (k, j)`: propagating the `J`-wide
  product is the product of the propagated `K`-wide array. The law under it is `RealSum.step_comm`; reality of the
  entries is what makes the product distribute over the extended reals' sums.

  Also here: the two broadcasts a printed step is made of, read at an index (`zeros_apply`: the zero array the
  scatter accumulates into; `rowBroadcast_apply`: an `[E]` array of coefficients spread along the columns of `[E, F]`).
-/
import proofs.«158620_j51762945852140_2_alg».proof.Proof.LibRowOps
import proofs.«158620_j51762945852140_2_alg».proof.Proof.LibRealSum
import Idealize.ShloMosaic.Lib.Pipeline.Value
import Idealize.ShloMosaic.PureOps.Ideal.Laws

noncomputable section

open scoped BigOperators

namespace Cert.Lib.Propagate

open Idealize.ShloMosaic Idealize.ShloMosaic.ValueIdx Cert.Lib.RowOps Cert.Lib.RealSum

variable {N E F K J : Nat}

/-- One propagation step at the ideal values: rows gathered by `rowI`, scaled entry by entry by `nB`, accumulated by
    `colI` into `zArr`. -/
def hop (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) :
    (⟨2, ![N, F]⟩ : Shape).Idx → EReal :=
  Ideal.hostScatterAdd (rowScatter N E F wfS) zArr colI
    (fun j => h ((rowGather N E F wfG).operandIdx j rowI) * nB j)

/-- The step read at `(n, f)`: what was there plus, over the edges `e` whose target reads `n`, the source row's entry in
    column `f` times the edge's coefficient there. -/
theorem hop_apply (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (h : (⟨2, ![N, F]⟩ : Shape).Idx → EReal) (n : Fin N) (f : Fin F) :
    hop wfG wfS rowI colI zArr nB h (ix2 n f)
      = zArr (ix2 n f) + ∑ e ∈ Finset.univ.filter (fun e : Fin E => (colI (ix2 e 0)).toInt = (n.val : Int)),
          h (ix2 (clampRow hN rowI e) f) * nB (ix2 e f) := by
  unfold hop
  rw [scatterAdd_rows_apply]
  refine congrArg (zArr (ix2 n f) + ·) (Finset.sum_congr rfl fun e _ => ?_)
  show h ((rowGather N E F wfG).operandIdx (ix2 e f) rowI) * nB (ix2 e f) = _
  rw [rowGather_operandIdx hN]

/-- The step on real entries, as a real array. -/
def stepReal (hN : 0 < N) (rowI colI : IVec ⟨2, ![E, 1]⟩ 32) (ν : Fin E → ℝ)
    (r : (⟨2, ![N, F]⟩ : Shape).Idx → ℝ) : (⟨2, ![N, F]⟩ : Shape).Idx → ℝ :=
  fun x => ∑ e ∈ Finset.univ.filter (fun e : Fin E => (colI (ix2 e 0)).toInt = ((x 0).val : Int)),
    r (ix2 (clampRow hN rowI e) (⟨(x 1).val, idx2_lt1 x⟩ : Fin F)) * ν e

/-- The matrix product of a real `[N, K]` array with a real `[K, J]` matrix. -/
def contract (r : (⟨2, ![N, K]⟩ : Shape).Idx → ℝ) (w : (⟨2, ![K, J]⟩ : Shape).Idx → ℝ) :
    (⟨2, ![N, J]⟩ : Shape).Idx → ℝ :=
  fun y => ∑ k : Fin K, r (ix2 (⟨(y 0).val, idx2_lt0 y⟩ : Fin N) k) * w (ix2 k (⟨(y 1).val, idx2_lt1 y⟩ : Fin J))

/-- The coercion of an entry of the product is the sum of the coerced products. -/
theorem contract_coe (r : (⟨2, ![N, K]⟩ : Shape).Idx → ℝ) (w : (⟨2, ![K, J]⟩ : Shape).Idx → ℝ) (n : Fin N) (j : Fin J) :
    ((contract r w (ix2 n j) : ℝ) : EReal) = ∑ k : Fin K, (r (ix2 n k) : EReal) * (w (ix2 k j) : EReal) := by
  show ((∑ k : Fin K, r (ix2 n k) * w (ix2 k j) : ℝ) : EReal) = _
  rw [coe_sum]
  simp only [EReal.coe_mul]

/-- The step of a real array is the real array `stepReal`. -/
theorem hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (rowI colI : IVec ⟨2, ![E, 1]⟩ 32) (zArr : (⟨2, ![N, F]⟩ : Shape).Idx → EReal)
    (nB : (⟨2, ![E, F]⟩ : Shape).Idx → EReal) (hz : ∀ i, zArr i = 0) (ν : Fin E → ℝ)
    (hn : ∀ e f, nB (ix2 e f) = (ν e : EReal)) (r : (⟨2, ![N, F]⟩ : Shape).Idx → ℝ) :
    hop wfG wfS rowI colI zArr nB (fun x => (r x : EReal)) = fun x => ((stepReal hN rowI colI ν r x : ℝ) : EReal) := by
  funext x
  obtain ⟨n, f, rfl⟩ : ∃ (n : Fin N) (f : Fin F), x = ix2 n f := ⟨x 0, x 1, eq_ix2 x⟩
  rw [hop_apply hN, hz]
  simp only [hn]
  exact step_real _ (fun e => r (ix2 (clampRow hN rowI e) f)) ν

/-- PROPAGATION COMMUTES WITH THE PRODUCT: the step of the `J`-wide product `r · w` is the product with `w` of the step
    of the `K`-wide array `r` — the same index arrays and coefficients on both widths. -/
theorem hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (rowI colI : IVec ⟨2, ![E, 1]⟩ 32) (zArr : (⟨2, ![N, J]⟩ : Shape).Idx → EReal)
    (nB : (⟨2, ![E, J]⟩ : Shape).Idx → EReal) (hz : ∀ i, zArr i = 0) (ν : Fin E → ℝ)
    (hn : ∀ e j, nB (ix2 e j) = (ν e : EReal))
    (r : (⟨2, ![N, K]⟩ : Shape).Idx → ℝ) (w : (⟨2, ![K, J]⟩ : Shape).Idx → ℝ) :
    hop wfG wfS rowI colI zArr nB (fun y => ((contract r w y : ℝ) : EReal))
      = fun y => ((contract (stepReal hN rowI colI ν r) w y : ℝ) : EReal) := by
  funext y
  obtain ⟨n, j, rfl⟩ : ∃ (n : Fin N) (j : Fin J), y = ix2 n j := ⟨y 0, y 1, eq_ix2 y⟩
  rw [hop_apply hN, hz]
  simp only [hn]
  exact step_comm _ (fun e k => r (ix2 (clampRow hN rowI e) k)) ν (fun k => w (ix2 k j))

/-! ## The step as a program prints it

A printed step is `Host.scatterAdd ds zArr colI (mulf (Host.gather dg h rowI) nB)` over the program's own dimension
records; when those are the row records of `RowOps` it is `hop`. Stated over arbitrary records equal to them, so that at
a program's literal shapes the printed term is met as it stands. -/

/-- The printed step is `hop`. -/
theorem host_hop_eq
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (h : FVec Ideal ⟨2, ![N, F]⟩ .f32) :
    Host.scatterAdd ds zArr colI (mulf (Host.gather dg h rowI) nB) = hop wfG wfS rowI colI zArr nB h := by
  subst hdg hds
  rfl

/-- The printed step of a real array is the real array `stepReal`. -/
theorem host_hop_real (hN : 0 < N)
    (wfG : GatherDims.WF ⟨2, ![N, F]⟩ ⟨2, ![E, 1]⟩ ⟨2, ![E, F]⟩ [1] [0] [] [0] [] 1 ![1, F])
    (wfS : ScatterDims.WF ⟨2, ![N, F]⟩ ⟨2, ![E, 1]⟩ ⟨2, ![E, F]⟩ [1] [0] [0] 1)
    (dg : GatherDims ⟨2, ![N, F]⟩ ⟨2, ![E, 1]⟩ ⟨2, ![E, F]⟩) (ds : ScatterDims ⟨2, ![N, F]⟩ ⟨2, ![E, 1]⟩ ⟨2, ![E, F]⟩)
    (hdg : dg = rowGather N E F wfG) (hds : ds = rowScatter N E F wfS)
    (rowI colI : IVec ⟨2, ![E, 1]⟩ 32) (zArr : FVec Ideal ⟨2, ![N, F]⟩ .f32) (nB : FVec Ideal ⟨2, ![E, F]⟩ .f32)
    (hz : ∀ i, zArr i = 0) (ν : Fin E → ℝ) (hn : ∀ e f, nB (ix2 e f) = (ν e : EReal))
    (r : (⟨2, ![N, F]⟩ : Shape).Idx → ℝ) :
    Host.scatterAdd ds zArr colI (mulf (Host.gather dg (fun x => (r x : EReal)) rowI) nB)
      = fun x => ((stepReal hN rowI colI ν r x : ℝ) : EReal) :=
  (host_hop_eq wfG wfS dg ds hdg hds rowI colI zArr nB _).trans (hop_real hN wfG wfS rowI colI zArr nB hz ν hn r)

/-- The printed step of the `J`-wide product `r · w` is the product with `w` of the step of `r`. -/
theorem host_hop_contract (hN : 0 < N)
    (wfG : GatherDims.WF ⟨2, ![N, J]⟩ ⟨2, ![E, 1]⟩ ⟨2, ![E, J]⟩ [1] [0] [] [0] [] 1 ![1, J])
    (wfS : ScatterDims.WF ⟨2, ![N, J]⟩ ⟨2, ![E, 1]⟩ ⟨2, ![E, J]⟩ [1] [0] [0] 1)
    (dg : GatherDims ⟨2, ![N, J]⟩ ⟨2, ![E, 1]⟩ ⟨2, ![E, J]⟩) (ds : ScatterDims ⟨2, ![N, J]⟩ ⟨2, ![E, 1]⟩ ⟨2, ![E, J]⟩)
    (hdg : dg = rowGather N E J wfG) (hds : ds = rowScatter N E J wfS)
    (rowI colI : IVec ⟨2, ![E, 1]⟩ 32) (zArr : FVec Ideal ⟨2, ![N, J]⟩ .f32) (nB : FVec Ideal ⟨2, ![E, J]⟩ .f32)
    (hz : ∀ i, zArr i = 0) (ν : Fin E → ℝ) (hn : ∀ e j, nB (ix2 e j) = (ν e : EReal))
    (r : (⟨2, ![N, K]⟩ : Shape).Idx → ℝ) (w : (⟨2, ![K, J]⟩ : Shape).Idx → ℝ) :
    Host.scatterAdd ds zArr colI (mulf (Host.gather dg (fun y => ((contract r w y : ℝ) : EReal)) rowI) nB)
      = fun y => ((contract (stepReal hN rowI colI ν r) w y : ℝ) : EReal) :=
  (host_hop_eq wfG wfS dg ds hdg hds rowI colI zArr nB _).trans (hop_contract hN wfG wfS rowI colI zArr nB hz ν hn r w)

/-- The zero array an accumulating scatter starts from: the f32 zero word broadcast to any shape reads `0`. -/
theorem zeros_apply {t : Shape} (h : (⟨0, ![]⟩ : Shape).BroadcastsInDim t (![] : Fin 0 → Fin t.rank)) (i : t.Idx) :
    broadcastInDim t (![] : Fin 0 → Fin t.rank) h (constant (F := Ideal) ⟨0, ![]⟩ .f32 0x00000000#32) i = 0 := by
  rw [broadcastInDim_apply _ h _ i ix0 (fun a => a.elim0)]
  exact Ideal.ofBits_zero_f32

/-- An `[E]` array spread over the columns of `[E, F]` (through `[E, 1]`) reads, at `(e, f)`, its entry `e`. -/
theorem rowBroadcast_apply {α : Type} (hE : E ≠ 1)
    (h1 : (⟨1, ![E]⟩ : Shape).BroadcastsInDim ⟨2, ![E, 1]⟩ (![0] : Fin 1 → Fin 2))
    (h2 : (⟨2, ![E, 1]⟩ : Shape).BroadcastsInDim ⟨2, ![E, F]⟩ (![0, 1] : Fin 2 → Fin 2))
    (x : (⟨1, ![E]⟩ : Shape).Idx → α) (e : Fin E) (f : Fin F) :
    broadcastInDim ⟨2, ![E, F]⟩ (![0, 1] : Fin 2 → Fin 2) h2 (broadcastInDim ⟨2, ![E, 1]⟩ (![0] : Fin 1 → Fin 2) h1 x) (ix2 e f)
      = x (ix1 e) := by
  rw [broadcastInDim_apply _ h2 _ (ix2 e f) (ix2 e (0 : Fin 1)) (fun a => match a with
    | ⟨0, _⟩ => by show e.val = if E = 1 then 0 else e.val; rw [if_neg hE]
    | ⟨1, _⟩ => by show 0 = if (1 : Nat) = 1 then 0 else f.val; rw [if_pos rfl])]
  rw [broadcastInDim_apply _ h1 _ (ix2 e (0 : Fin 1)) (ix1 e) (fun a => match a with
    | ⟨0, _⟩ => by show e.val = if E = 1 then 0 else e.val; rw [if_neg hE])]

end Cert.Lib.Propagate

end
-- ==== Proof.Norm.lean ====
/-
  The edge coefficients are real numbers.

  Each edge `e` of the graph with self-loops carries the coefficient `ν e = d (src e) · d (dst e)`, where
  `d n = deg n ^ (−1/2)` when `deg n > 0` and `0` otherwise, and `deg n` is the number of edges arriving at `n`: an
  accumulating scatter of the constant `1.0` into zeros. Whatever the index words are, `deg n` is a finite sum of
  ones, hence a real; the reciprocal square root is taken only where it is positive, and `0` stands elsewhere; a
  gathered entry of a real array is real, and so is a product of two reals. So every `ν e` is a real number — which
  is what lets the product with `ν e` distribute over the sums of the aggregation.
-/
import proofs.«158620_j51762945852140_2_alg».proof.Proof.RefReadPatched
import proofs.«158620_j51762945852140_2_alg».proof.Proof.LibRealSum

noncomputable section

namespace Cert.Gcn.Norm

open Idealize.ShloMosaic Idealize.ShloMosaic.ValueIdx Cert.ReferenceIdeal Cert.ReferenceIdeal.ReadP Cert.Lib.RealSum

/-- The word `0x3F800000` (the float `1.0`) denotes a real number. -/
theorem one_real : IsReal (FloatOps.ofBits (F := Ideal) .f32 0x3F800000#32) := by
  refine ⟨1, ?_⟩
  rw [Ideal.ofBits_def]
  simp [Ideal.ofBits, Ideal.ieee]
  rw [← EReal.coe_mul, ← EReal.coe_one]
  exact congrArg _ (by norm_num)

variable (ei : IVec S2x800000 32)

/-- The in-degree (with the self-loop) of a node is a real number: zero plus a finite sum of ones. -/
theorem deg_real (n : S50000.Idx) : IsReal (val_main_v15 (F := Ideal) ei n) := by
  unfold val_main_v15
  refine IsReal.host_scatterAdd _ _ _ _ (fun i => ?_) (fun j => ?_) n
  · rw [val_main_v7_apply]; exact IsReal.ofBits_zero
  · rw [val_main_v14_apply]; exact one_real

/-- The normaliser `d n` — the reciprocal square root of a positive degree, `0` otherwise — is a real number. -/
theorem dinv_real (n : S50000.Idx) : IsReal (val_main_v19 (F := Ideal) ei n) := by
  rw [val_main_v19_apply, val_main_v17_apply, val_main_v18_apply]
  obtain ⟨r, hr⟩ := deg_real ei n
  rw [hr]
  have hz : val_main_v16 (F := Ideal) n = 0 := by
    rw [val_main_v16_apply]; exact Ideal.ofBits_zero_f32
  have he : IsReal (val_main_call0_v1 (F := Ideal) n) := by
    rw [val_main_call0_v1_apply]; exact IsReal.ofBits_zero
  rw [hz]
  show IsReal (Scalar.select (Ideal.cmp .ogt ((r : ℝ) : EReal) 0) (Ideal.rsqrt ((r : ℝ) : EReal)) (val_main_call0_v1 (F := Ideal) n))
  by_cases hpos : 0 < r
  · exact IsReal.select _ (IsReal.rsqrt_of_pos hpos) he
  · have hc : Ideal.cmp .ogt ((r : ℝ) : EReal) 0 = 0#1 := by
      unfold Ideal.cmp
      dsimp only
      rw [decide_eq_false (fun h => hpos (EReal.coe_pos.mp h))]
      rfl
    rw [hc]
    exact he

/-- The coefficient of an edge is a real number. -/
theorem coef_real (e : S850000.Idx) : IsReal (val_main_v34 (F := Ideal) ei e) := by
  rw [val_main_v34_apply]
  refine IsReal.fmul ?_ ?_
  · unfold val_main_v26; exact IsReal.host_gather _ _ _ (dinv_real ei) e
  · unfold val_main_v33; exact IsReal.host_gather _ _ _ (dinv_real ei) e

/-- The coefficients as a real family indexed by the edge. -/
def coef (e : Fin 850000) : ℝ := Classical.choose (coef_real ei (ix1 e))

theorem coef_spec (e : Fin 850000) : val_main_v34 (F := Ideal) ei (ix1 e) = ((coef ei e : ℝ) : EReal) :=
  Classical.choose_spec (coef_real ei (ix1 e))

end Cert.Gcn.Norm

end
-- ==== Proof.RefSide.lean ====
/-
  The reference, read at an entry.

  The reference contracts the node features with `W` first (`x · W`, 256 wide), gathers the rows `src e`, scales
  each by its edge coefficient `ν e`, and adds them up on the rows `dst e`; then bias, rectifier, the product with
  `W2` and the second bias. Read at `(n, q)` the result is the head `outRow` on the aggregated row (`out_apply`), and
  for real features and weights the aggregate of the product is the product of the aggregate (`agg_contract`): the
  coefficients are real, so the product with `ν e` distributes over the contraction with `W`.
-/
import proofs.«158620_j51762945852140_2_alg».proof.Proof.RefReadPatched
import proofs.«158620_j51762945852140_2_alg».proof.Proof.LibPropagate
import proofs.«158620_j51762945852140_2_alg».proof.Proof.DenseHead
import proofs.«158620_j51762945852140_2_alg».proof.Proof.Norm

noncomputable section

open scoped BigOperators

namespace Cert.Gcn.Ref

open Idealize.ShloMosaic Idealize.ShloMosaic.ValueIdx Cert.ReferenceIdeal Cert.ReferenceIdeal.ReadP
open Cert.Lib.RealSum Cert.Lib.Propagate Cert.Lib.RowOps Cert.Gcn.Norm

variable (ei : IVec S2x800000 32)

/-- The coefficient array spread over the 256 columns reads, at `(e, j)`, the edge's coefficient. -/
theorem coef_cols (e : Fin 850000) (j : Fin 256) :
    val_main_v44 (F := Ideal) ei (ix2 e j) = ((coef ei e : ℝ) : EReal) := by
  rw [val_main_v44_apply, val_main_v43_apply]
  have hi : idx_main_v43 (idx_main_v44 (ix2 e j)) = ix1 e :=
    funext fun a => Fin.ext (by match a with | ⟨0, _⟩ => rfl)
  rw [hi]
  exact coef_spec ei e

/-- The host product of real features with a real weight matrix is the real matrix product. -/
theorem product_real (xr : S50000x128.Idx → ℝ) (wr : S128x256.Idx → ℝ) :
    val_main_v35 (F := Ideal) (fun i => ((xr i : ℝ) : EReal)) (fun i => ((wr i : ℝ) : EReal))
      = fun y => ((contract xr wr y : ℝ) : EReal) := by
  funext y
  obtain ⟨n, j, rfl⟩ : ∃ (n : Fin 50000) (j : Fin 256), y = ix2 n j := ⟨y 0, y 1, eq_ix2 y⟩
  rw [val_main_v35_apply, contract_coe]
  refine Finset.sum_congr rfl fun k _ => ?_
  have el : lidx_main_v35 (ix2 n j) k = ix2 n k :=
    funext fun a => Fin.ext (by match a with | ⟨0, _⟩ => rfl | ⟨1, _⟩ => rfl)
  have er : ridx_main_v35 (ix2 n j) k = ix2 k j :=
    funext fun a => Fin.ext (by match a with | ⟨0, _⟩ => rfl | ⟨1, _⟩ => rfl)
  rw [el, er]

/-- AGGREGATING THE PRODUCT IS THE PRODUCT OF THE AGGREGATE: for real features `xr` and real weights `wr` the
    reference's aggregated 256-wide array is the matrix product with `wr` of the aggregated 128-wide features. -/
theorem agg_contract (xr : S50000x128.Idx → ℝ) (wr : S128x256.Idx → ℝ) :
    val_main_v48 (F := Ideal) (fun i => ((xr i : ℝ) : EReal)) ei (fun i => ((wr i : ℝ) : EReal))
      = fun y => ((contract (stepReal (N := 50000) (by decide) (val_main_v41 (F := Ideal) ei) (val_main_v47 (F := Ideal) ei)
          (coef ei) xr) wr y : ℝ) : EReal) := by
  unfold val_main_v48 val_main_v45 val_main_v42
  rw [product_real]
  exact host_hop_contract (by decide) gather_S50000x256_S850000x1_S850000x256_1_0_n_n_0_1_1256.wf
    scatter_S50000x256_S850000x1_S850000x256_1_0_0_1.wf _ _ rfl rfl _ _ _ _
    (fun i => by rw [val_main_v46_apply]; exact Ideal.ofBits_zero_f32) (coef ei) (coef_cols ei) xr wr

/-- The reference's result at `(n, q)`: the head on the aggregated row `n`. -/
theorem out_apply (x0 : FVec Ideal S50000x128 .f32) (x2 : FVec Ideal S128x256 .f32) (x3 : FVec Ideal S256 .f32)
    (x4 : FVec Ideal S256x64 .f32) (x5 : FVec Ideal S64 .f32) (n : Fin 50000) (q : Fin 64) :
    val_main_v56 (F := Ideal) x0 ei x2 x3 x4 x5 (ix2 n q)
      = outRow (fun h : Fin 256 => val_main_v48 (F := Ideal) x0 ei x2 (ix2 n h)) (fun h => x3 (ix1 h))
          (fun h q => x4 (ix2 h q)) (fun q => x5 (ix1 q)) q := by
  rw [val_main_v56_apply, val_main_v53_apply]
  unfold outRow
  have hb2 : val_main_v55 (F := Ideal) x5 (ix2 n q) = x5 (ix1 q) := by
    rw [val_main_v55_apply, val_main_v54_apply]
    exact congrArg x5 (funext fun a => Fin.ext (by match a with | ⟨0, _⟩ => rfl))
  rw [hb2]
  refine congrArg (· + x5 (ix1 q)) (Finset.sum_congr rfl fun h _ => ?_)
  have el : lidx_main_v53 (ix2 n q) h = ix2 n h :=
    funext fun a => Fin.ext (by match a with | ⟨0, _⟩ => rfl | ⟨1, _⟩ => rfl)
  have er : ridx_main_v53 (ix2 n q) h = ix2 h q :=
    funext fun a => Fin.ext (by match a with | ⟨0, _⟩ => rfl | ⟨1, _⟩ => rfl)
  have hb : val_main_v50 (F := Ideal) x3 (ix2 n h) = x3 (ix1 h) := by
    rw [val_main_v50_apply, val_main_v49_apply]
    exact congrArg x3 (funext fun a => Fin.ext (by match a with | ⟨0, _⟩ => rfl))
  have hz : val_main_call1_v0 (F := Ideal) (ix2 n h) = 0 := by
    rw [val_main_call1_v0_apply]; exact Ideal.ofBits_zero_f32
  rw [el, er, val_main_v52_apply, val_main_v51_apply, hb, hz]
  rfl

end Cert.Gcn.Ref

end
-- ==== Proof.Bridge.lean ====
/-
  The two programs compute one function.

  Both programs build the same index arrays and the same edge coefficients from the edge list (the same operations,
  line for line), and both end with the same head. Between them the tiled program aggregates the 128 input features
  and contracts the aggregate with `W` inside the unit, while the reference contracts first and aggregates the 256
  products. For real features and real weights — and the coefficients are real whatever the index words are — these
  agree: the product with an edge's coefficient distributes over the contraction. So the result array the unit
  leaves, as a function of the launch contents, is the reference's result (`kernel_eq_reference`).
-/
import proofs.«158620_j51762945852140_2_alg».proof.Proof.KernelHost
import proofs.«158620_j51762945852140_2_alg».proof.Proof.KernelArray
import proofs.«158620_j51762945852140_2_alg».proof.Proof.RefSide
import Idealize.ShloMosaic.Lib.ValueLayout

noncomputable section

open scoped BigOperators

namespace Cert.Gcn.Bridge

open Idealize.ShloMosaic Idealize.ShloMosaic.ValueIdx
open Cert.Lib.RealSum Cert.Lib.Propagate Cert.Lib.RowOps Cert.Gcn.Norm

variable (ei : IVec Cert.KernelIdeal.S2x800000 32)

section SameLines

/-! The two programs compute their index arrays and coefficients by the same lines: the equalities hold at any float
values, by reading the two texts side by side. -/

variable {F : FTy → Type} [FloatOps F]

/-- The targets the aggregation adds onto are the reference's. -/
theorem dst_eq : KHost.column (KHost.dstRaw ei) = Cert.ReferenceIdeal.ReadP.val_main_v47 (F := F) ei := rfl

/-- The sources it gathers from are the reference's. -/
theorem src_eq : KHost.column (KHost.wrap (KHost.srcRaw ei)) = Cert.ReferenceIdeal.ReadP.val_main_v41 (F := F) ei := rfl

/-- The edge coefficients are the reference's. -/
theorem coefs_eq : KHost.coefs (F := F) ei = Cert.ReferenceIdeal.ReadP.val_main_v34 (F := F) ei := rfl

end SameLines

/-- The coefficient array spread over the 128 columns reads, at `(e, f)`, the edge's coefficient. -/
theorem coef_cols (e : Fin 850000) (f : Fin 128) :
    broadcastInDim Cert.KernelIdeal.S850000x128 ![0, 1] Cert.KernelIdeal.Facts₀.bcast_S850000x1_S850000x128_0_1
      (broadcastInDim Cert.KernelIdeal.S850000x1 ![0] Cert.KernelIdeal.Facts₀.bcast_S850000_S850000x1_0 (KHost.coefs (F := Ideal) ei))
      (ix2 e f) = ((coef ei e : ℝ) : EReal) := by
  rw [rowBroadcast_apply (by decide) _ _ (KHost.coefs (F := Ideal) ei) e f, coefs_eq (F := Ideal)]
  exact coef_spec ei e

/-- The aggregated features of real node features are the real propagation step of them. -/
theorem aggregated_real (xr : Cert.KernelIdeal.S50000x128.Idx → ℝ) :
    KHost.aggregated (F := Ideal) (fun i => ((xr i : ℝ) : EReal)) ei
      = fun y => ((stepReal (N := 50000) (by decide) (Cert.ReferenceIdeal.ReadP.val_main_v41 (F := Ideal) ei)
          (Cert.ReferenceIdeal.ReadP.val_main_v47 (F := Ideal) ei) (coef ei) xr y : ℝ) : EReal) := by
  rw [← src_eq (F := Ideal), ← dst_eq (F := Ideal)]
  -- a change of float format is the identity: the gathered rows are rows of `xr`
  show Host.scatterAdd Cert.KernelIdeal.scatter_S50000x128_S850000x1_S850000x128_1_0_0_1
      (broadcastInDim Cert.KernelIdeal.S50000x128 ![] Cert.KernelIdeal.Facts₀.bcast_S_S50000x128
        (constant (F := Ideal) Cert.KernelIdeal.S_ .f32 0x00000000#32))
      (KHost.column (KHost.dstRaw ei))
      (mulf (Host.gather Cert.KernelIdeal.gather_S50000x128_S850000x1_S850000x128_1_0_n_n_0_1_1128
          (fun i => ((xr i : ℝ) : EReal)) (KHost.column (KHost.wrap (KHost.srcRaw ei))))
        (broadcastInDim Cert.KernelIdeal.S850000x128 ![0, 1] Cert.KernelIdeal.Facts₀.bcast_S850000x1_S850000x128_0_1
          (broadcastInDim Cert.KernelIdeal.S850000x1 ![0] Cert.KernelIdeal.Facts₀.bcast_S850000_S850000x1_0 (KHost.coefs (F := Ideal) ei))))
    = _
  exact host_hop_real (by decide) Cert.KernelIdeal.gather_S50000x128_S850000x1_S850000x128_1_0_n_n_0_1_1128.wf
    Cert.KernelIdeal.scatter_S50000x128_S850000x1_S850000x128_1_0_0_1.wf _ _ rfl rfl _ _ _ _
    (fun i => zeros_apply _ i) (coef ei) (coef_cols ei) xr

/-- THE BRIDGE. For real node features and a real first weight matrix, `whole` of the arrays the unit finds — the
    aggregated features, `W`, the two bias vectors as one-row matrices, `W2` — is the reference's result. -/
theorem kernel_eq_reference (x : FVec Ideal Cert.KernelIdeal.S50000x128 .f32) (W : FVec Ideal Cert.KernelIdeal.S128x256 .f32)
    (b : FVec Ideal Cert.KernelIdeal.S256 .f32) (W2 : FVec Ideal Cert.KernelIdeal.S256x64 .f32)
    (b2 : FVec Ideal Cert.KernelIdeal.S64 .f32) (hx : ∀ i, IsReal (x i)) (hW : ∀ i, IsReal (W i)) :
    KArray.whole (KHost.aggregated (F := Ideal) x ei) W
        (shapeCast Cert.KernelIdeal.S1x256 b Cert.KernelIdeal.Facts₀.shapeCasts_S256_S1x256) W2
        (shapeCast Cert.KernelIdeal.S1x64 b2 Cert.KernelIdeal.Facts₀.shapeCasts_S64_S1x64)
      = Cert.ReferenceIdeal.ReadP.val_main_v56 (F := Ideal) x ei W b W2 b2 := by
  choose xr hxr using hx
  choose wr hwr using hW
  obtain rfl : x = fun i => ((xr i : ℝ) : EReal) := funext hxr
  obtain rfl : W = fun i => ((wr i : ℝ) : EReal) := funext hwr
  funext i
  obtain ⟨n, q, rfl⟩ : ∃ (n : Fin 50000) (q : Fin 64), i = ix2 n q := ⟨i 0, i 1, eq_ix2 i⟩
  rw [Ref.out_apply, Ref.agg_contract, aggregated_real]
  exact outRow_congr (fun h => (contract_coe _ wr n h).symm)
    (fun h => shapeCast_a_1a_apply b Cert.KernelIdeal.Facts₀.shapeCasts_S256_S1x256 0 h) (fun _ _ => rfl)
    (fun q => shapeCast_a_1a_apply b2 Cert.KernelIdeal.Facts₀.shapeCasts_S64_S1x64 0 q) q

end Cert.Gcn.Bridge

end
-- ==== Proof.lean ====
/-
  The tiled graph-convolution network computes its reference, at the extended reals.

  The network: every node `n` of a graph on 50000 nodes carries 128 features; an edge list of 800000 edges is extended
  by one self-loop per node; each edge `e` gets the coefficient `ν e = d (src e) · d (dst e)` with `d = deg ^ (−1/2)`
  (zero where the degree is zero); one propagation step sends `h` to `h' n = ∑ { e : dst e = n } h (src e) · ν e`; then
  a bias, a rectifier, a second dense layer and its bias.

  The reference contracts the features with the first weight matrix `W` (128 × 256) and then propagates the 256-wide
  product. The tiled program propagates the 128-wide features on the host and gives the aggregate to ONE fused unit,
  which at each of 5 grid points takes 10000 rows, contracts them with `W`, adds the bias, rectifies, contracts with
  `W2` (256 × 64) and adds the second bias. The two agree because propagation is linear in each column and acts on
  the rows only: for real entries, `(∑_e a_e · ν_e) · W = ∑_e (a_e · W) · ν_e`. On the extended reals this exchange of
  a product with a sum needs the entries to be real: the precondition gives that for the features and for `W`, and
  the coefficients are real whatever the index words are (a degree is a finite sum of ones). Nothing else needs
  finiteness: from the aggregate onwards both programs apply the same head.

  Here: the three frames (each program runs to the end, faults nowhere and leaves its arguments as they were), the
  idealization statement (the ideal pass rewrote nothing), and the equality of the two results, assembled from the
  unit's value block by block, the host part's contents, the reference's run read at an entry, and the bridge.
-/
import proofs.«158620_j51762945852140_2_alg».proof.Defs
import proofs.«158620_j51762945852140_2_alg».proof.Proof.Gen.Kernel
import proofs.«158620_j51762945852140_2_alg».proof.Proof.Gen.Kernel.Skeleton
import proofs.«158620_j51762945852140_2_alg».proof.Proof.Gen.Kernel.Launch
import proofs.«158620_j51762945852140_2_alg».proof.Proof.Gen.Kernel.Points
import proofs.«158620_j51762945852140_2_alg».proof.Proof.Gen.Kernel.Frame
import proofs.«158620_j51762945852140_2_alg».proof.Proof.Gen.KernelIdeal
import proofs.«158620_j51762945852140_2_alg».proof.Proof.Gen.KernelIdeal.Skeleton
import proofs.«158620_j51762945852140_2_alg».proof.Proof.Gen.KernelIdeal.Launch
import proofs.«158620_j51762945852140_2_alg».proof.Proof.Gen.KernelIdeal.Points
import proofs.«158620_j51762945852140_2_alg».proof.Proof.Gen.KernelIdeal.Frame
import proofs.«158620_j51762945852140_2_alg».proof.Proof.Gen.ReferenceIdeal
import proofs.«158620_j51762945852140_2_alg».proof.Proof.Gen.Pre_finite_inputs
import proofs.«158620_j51762945852140_2_alg».proof.Proof.Gen.KernelIdeal.Value
import proofs.«158620_j51762945852140_2_alg».proof.Proof.RefRunPatched
import proofs.«158620_j51762945852140_2_alg».proof.Proof.RefReadPatched
import proofs.«158620_j51762945852140_2_alg».proof.Proof.Finite
import proofs.«158620_j51762945852140_2_alg».proof.Proof.Bridge
import Idealize.ShloMosaic.Adequacy
import Idealize.ShloMosaic.Init

noncomputable section

namespace Cert.Proof

open Idealize.ShloMosaic Idealize.ShloMosaic.TcCoe Idealize.SL.Sem

/-- The tiled program as printed runs to the end and leaves its arguments unchanged. -/
theorem frame_kernel : Cert.frame_Kernel := fun m ρ _ => Cert.Kernel.Gen.frame m ρ

/-- So does its reading at the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories that agree on the arguments, both programs end with the same result: the reference's value
    `val_main_v56` of the launch contents. The unit's result array is `whole` of what the unit finds (block by block),
    what it finds is the aggregated features, the weights and the re-laid biases (the host part), and that is the
    reference's value because the features and `W` are real under the precondition (the bridge). -/
theorem algebraic : Cert.algebraic_KernelIdeal_ReferenceIdeal := by
  intro m ρ m' ρ' hpre hagree
  refine ⟨fun c => Cert.ReferenceIdeal.ReadP.val_main_v56 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ⟨(h c).1.trans ?_, (h c).2⟩)
      (Cert.KernelIdeal.Value.run_blocks m ρ)
    obtain ⟨hx, hW⟩ := Cert.Gcn.Finite.real_inputs _ _ _ _ _ _ (hpre c)
    rw [Cert.Gcn.KArray.final, Cert.Gcn.KHost.found_aggregated, Cert.Gcn.KHost.found_w1, Cert.Gcn.KHost.found_bias1,
      Cert.Gcn.KHost.found_w2, Cert.Gcn.KHost.found_bias2]
    exact Cert.Gcn.Bridge.kernel_eq_reference _ _ _ _ _ _ hx hW
  · refine (θ_run Cert.ReferenceIdeal.defs _ _).mono (fun _ h c => ⟨?_, (h c).2⟩)
      (Cert.ReferenceIdeal.ValueP.run (F := Ideal) m' ρ')
    obtain ⟨a0, a1, a2, a3, a4, a5⟩ := hagree c
    rw [(h c).1, Cert.ReferenceIdeal.ReadP.val_main_v56_eq, a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
